-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x1024 : Shape := ⟨2, ![2048, 1024]⟩
abbrev S2048 : Shape := ⟨1, ![2048]⟩
abbrev S512 : Shape := ⟨1, ![512]⟩
abbrev S512x512 : Shape := ⟨2, ![512, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  main_v38

def fn_part1 {F : FTy → Type} [FloatOps F] (main_arg4 : FVec F S2048 .f32) (main_arg5 : FVec F S512 .f32) (main_arg6 : FVec F S512 .f32) (main_arg7 : FVec F S512x512 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x512 .f32) (main_arg2 : FVec F S16384x512 .f32) (main_arg3 : FVec F S2048x1024 .f32) (main_arg4 : FVec F S2048 .f32) (main_arg5 : FVec F S512 .f32) (main_arg6 : FVec F S512 .f32) (main_arg7 : FVec F S512x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_v13 main_v16
-- ==== Kernel.lean ====
abbrev S16384x512 : Shape := ⟨2, ![16384, 512]⟩
abbrev S2048x1024 : Shape := ⟨2, ![2048, 1024]⟩
abbrev S2048 : Shape := ⟨1, ![2048]⟩
abbrev S512 : Shape := ⟨1, ![512]⟩
abbrev S512x512 : Shape := ⟨2, ![512, 512]⟩
abbrev S1x2048 : Shape := ⟨2, ![1, 2048]⟩
abbrev S1x512 : Shape := ⟨2, ![1, 512]⟩
abbrev S2048x512 : Shape := ⟨2, ![2048, 512]⟩
abbrev S512x2048 : Shape := ⟨2, ![512, 2048]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S2048x1024, .f32⟩
  | .hbm, ⟨4, _⟩ => ⟨S2048, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S2048x1024, .bf16⟩
  | .hbm, ⟨9, _⟩ => ⟨S512x512, .bf16⟩
  | .hbm, ⟨10, _⟩ => ⟨S1x2048, .f32⟩
  | .hbm, ⟨11, _⟩ => ⟨S1x512, .f32⟩
  | .hbm, ⟨12, _⟩ => ⟨S1x512, .f32⟩
  | .hbm, ⟨13, _⟩ => ⟨S16384x512, .f32⟩
  | .hbm, ⟨14, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2048x1024, .bf16⟩
  | .local _ .vmem, ⟨7, _⟩ => ⟨S1x2048, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S2048_S1x2048 : S2048.ShapeCasts S1x2048
  shapeCasts_S512_S1x512 : S512.ShapeCasts S1x512
  inb_S512x512_S512x512_0_0 : ∀ a, (![0, 0] : Fin 2 → Nat) a + S512x512.size a ≤ S512x512.size a
  h_S512x512 : 0 < S512x512.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S2048x1024_o0_0_S2048x512 : S2048x1024.Slices ![0, 0] S2048x512
  slices_S2048x1024_o0_512_S2048x512 : S2048x1024.Slices ![0, 512] S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  reduces_S512x512_S512 : S512x512.Reduces [1] S512
  shapeCasts_S512_S512x1 : S512.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S512x512 : S512x512.ShapeCasts S512x512
  dot_S512x512_S2048x512_S512x2048_1_1_0_0_n_n_wf : DotDims.WF S512x512 S2048x512 S512x2048 [1] [1] [0] [0] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S16384x512.size a
  hwx0_9 : ∀ i : grid0.Coords, EltTy.bits .f32 = 32 ∨ (Rect.block (s := S16384x512) S512x512.size (cc0_transform_9 i) (hinb0_9 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x1024 : Shape := ⟨2, ![2048, 1024]⟩
abbrev S2048 : Shape := ⟨1, ![2048]⟩
abbrev S512 : Shape := ⟨1, ![512]⟩
abbrev S512x512 : Shape := ⟨2, ![512, 512]⟩
abbrev S16384x1024 : Shape := ⟨2, ![16384, 1024]⟩
abbrev S1024x2048 : Shape := ⟨2, ![1024, 2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 79
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S2048x1024, .f32⟩
  | .hbm, ⟨4, _⟩ => ⟨S2048, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S16384x1024, .f32⟩
  | .hbm, ⟨9, _⟩ => ⟨S1024x2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x512, .f32⟩
  | .hbm, ⟨68, _⟩ => ⟨S16384x512, .f32⟩
  | .hbm, ⟨69, _⟩ => ⟨S1x512, .f32⟩
  | .hbm, ⟨70, _⟩ => ⟨S16384x512, .f32⟩
  | .hbm, ⟨71, _⟩ => ⟨S16384x512, .f32⟩
  | .hbm, ⟨72, _⟩ => ⟨S1x512, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S512x512, .f32⟩
  | .hbm, ⟨78, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  transposes_S2048x1024_S1024x2048_1_0 : S2048x1024.Transposes [1, 0] S1024x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S512x512_S512x512_1_0 : S512x512.Transposes [1, 0] S512x512
  dot_S16384x1024_S1024x2048_S16384x2048_1_0_0_1_n_n_wf : DotDims.WF S16384x1024 S1024x2048 S16384x2048 [1] [0] [0] [1] [] []
  dot_S16384x512_S512x512_S16384x512_1_0_0_1_n_n_wf : DotDims.WF S16384x512 S512x512 S16384x512 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.Spec.lean ====
/-
  A layer-normalised LSTM cell with a projected output, one batch row at a time, on the extended reals.

  From one row of the input `x`, of the previous hidden state `h` and of the previous cell state `c` (512 entries
  each), a weight matrix `W` (2048 × 1024), a bias `b` (2048), a layer-norm scale and shift (512 each) and a projection
  matrix `Wp` (512 × 512):
    gate n      = Σ_k x k · W n k  +  Σ_k h k · W n (512 + k)  +  b n                       (n < 2048)
    cell j      = σ(gate (512 + j)) · c j  +  σ(gate j) · tanh(gate (1024 + j))             (j < 512)
    normed j    = (cell j − μ) · rsqrt(mean of (cell − μ)² + ε) · scale j + shift j,  μ = mean of cell
    out n       = Σ_k (σ(gate (1536 + k)) · tanh(normed k)) · Wp n k
  with σ the logistic function, the mean a sum divided by the literal 512 and ε the literal of 1e-5, every operation
  the extended reals' own. The sum over the 1024 columns of the row `[x, h]` joined is the sum of the two halves'
  sums; that is the one law the two arrangements of the gate pre-activation differ by, and it holds in any commutative
  additive monoid, infinite entries included.
-/
import Idealize.ShloMosaic.PureOps.Ideal
import Idealize.ShloMosaic.PureOps.Ideal.Laws
import Idealize.ShloMosaic.Lib.IdealHost
import Idealize.ShloMosaic.Lib.ValueIdx

noncomputable section

namespace Cert.LnLstm

open Idealize.ShloMosaic Idealize.ShloMosaic.ValueIdx

/-- Column `k` of the first half of a 1024-column row. -/
abbrev lo (k : Fin 512) : Fin 1024 := ⟨k.val, by have := k.isLt; omega⟩
/-- Column `512 + k`, in the second half of a 1024-column row. -/
abbrev hi (k : Fin 512) : Fin 1024 := ⟨k.val + 512, by have := k.isLt; omega⟩

/-- Gate column `j + o` of the 2048 gate columns, for a block offset `o ≤ 1536`. -/
abbrev col (o : Nat) (ho : o ≤ 1536) (j : Fin 512) : Fin 2048 := ⟨j.val + o, by have := j.isLt; omega⟩

/-- A sum over 1024 columns is the sum over the first 512 plus the sum over the last 512. -/
theorem sum_halves (f : Fin 1024 → EReal) : ∑ k : Fin 1024, f k = ∑ k : Fin 512, f (lo k) + ∑ k : Fin 512, f (hi k) := by
  have h := Fin.sum_univ_add (M := EReal) (a := 512) (b := 512) (fun k : Fin (512 + 512) => f k)
  refine h.trans ?_
  refine congrArg₂ (· + ·) rfl (Finset.sum_congr rfl fun k _ => congrArg f (Fin.ext ?_))
  show 512 + k.val = k.val + 512
  omega

/-- The pre-activation of gate column `n`: the row of `x` against the first 512 columns of row `n` of `W`, the row of `h`
    against its last 512, and the bias. -/
def gate (xr hr : Fin 512 → EReal) (W : Fin 2048 → Fin 1024 → EReal) (b : Fin 2048 → EReal) (n : Fin 2048) : EReal :=
  (∑ k : Fin 512, xr k * W n (lo k)) + (∑ k : Fin 512, hr k * W n (hi k)) + b n

/-- The same pre-activation written over the joined row `[x, h]`: one sum over 1024 columns. -/
theorem gate_eq_joined (xr hr : Fin 512 → EReal) (W : Fin 2048 → Fin 1024 → EReal) (b : Fin 2048 → EReal) (n : Fin 2048)
    (cat : Fin 1024 → EReal) (hlo : ∀ k, cat (lo k) = xr k) (hhi : ∀ k, cat (hi k) = hr k) :
    (∑ k : Fin 1024, cat k * W n k) + b n = gate xr hr W b n := by
  unfold gate
  rw [sum_halves]
  simp only [hlo, hhi]

/-- The new cell state before normalisation: forget gate times the old cell state plus input gate times candidate. -/
def cell (xr hr cr : Fin 512 → EReal) (W : Fin 2048 → Fin 1024 → EReal) (b : Fin 2048 → EReal) (j : Fin 512) : EReal :=
  Ideal.logistic (gate xr hr W b (col 512 (by omega) j)) * cr j
    + Ideal.logistic (gate xr hr W b (col 0 (by omega) j)) * Ideal.tanh (gate xr hr W b (col 1024 (by omega) j))

/-- The mean of 512 entries: their sum over the literal 512. -/
def mean (v : Fin 512 → EReal) : EReal := Ideal.div (∑ j : Fin 512, v j) (Ideal.ofBits .f32 0x44000000#32)

/-- Layer normalisation of a row of 512 entries with scale `ga` and shift `be`. -/
def normed (v ga be : Fin 512 → EReal) (j : Fin 512) : EReal :=
  (v j - mean v) * Ideal.rsqrt (mean (fun l => (v l - mean v) * (v l - mean v)) + Ideal.ofBits .f32 0x3727C5AC#32) * ga j + be j

/-- The normalised cell state of one batch row. -/
def cellOut (xr hr cr : Fin 512 → EReal) (W : Fin 2048 → Fin 1024 → EReal) (b : Fin 2048 → EReal) (ga be : Fin 512 → EReal) (j : Fin 512) : EReal :=
  normed (cell xr hr cr W b) ga be j

/-- The projected output of one batch row: the output gate times tanh of the normalised cell state, against row `n` of `Wp`. -/
def projOut (xr hr cr : Fin 512 → EReal) (W : Fin 2048 → Fin 1024 → EReal) (b : Fin 2048 → EReal) (ga be : Fin 512 → EReal)
    (Wp : Fin 512 → Fin 512 → EReal) (n : Fin 512) : EReal :=
  ∑ k : Fin 512, (Ideal.logistic (gate xr hr W b (col 1536 (by omega) k)) * Ideal.tanh (cellOut xr hr cr W b ga be k)) * Wp n k

/-! ## The two result arrays as functions of the argument arrays -/

/-- Row `r` of a 512-column array. -/
abbrev rowOf {a : Nat} (x : (⟨2, ![a, 512]⟩ : Shape).Idx → EReal) (r : Fin a) : Fin 512 → EReal := fun k => x (ix2 r k)
/-- A rank-2 array as a function of its two coordinates. -/
abbrev mat {a b : Nat} (w : (⟨2, ![a, b]⟩ : Shape).Idx → EReal) : Fin a → Fin b → EReal := fun n k => w (ix2 n k)
/-- A rank-1 array as a function of its coordinate. -/
abbrev vec {a : Nat} (v : (⟨1, ![a]⟩ : Shape).Idx → EReal) : Fin a → EReal := fun n => v (ix1 n)

/-- The normalised cell state array: row `i 0`, column `i 1`. -/
def cellArr (x h c : (⟨2, ![16384, 512]⟩ : Shape).Idx → EReal) (W : (⟨2, ![2048, 1024]⟩ : Shape).Idx → EReal)
    (b : (⟨1, ![2048]⟩ : Shape).Idx → EReal) (ga be : (⟨1, ![512]⟩ : Shape).Idx → EReal) :
    (⟨2, ![16384, 512]⟩ : Shape).Idx → EReal :=
  fun i => cellOut (rowOf x (i 0)) (rowOf h (i 0)) (rowOf c (i 0)) (mat W) (vec b) (vec ga) (vec be) (i 1)

/-- The projected output array: row `i 0`, column `i 1`. -/
def outArr (x h c : (⟨2, ![16384, 512]⟩ : Shape).Idx → EReal) (W : (⟨2, ![2048, 1024]⟩ : Shape).Idx → EReal)
    (b : (⟨1, ![2048]⟩ : Shape).Idx → EReal) (ga be : (⟨1, ![512]⟩ : Shape).Idx → EReal) (Wp : (⟨2, ![512, 512]⟩ : Shape).Idx → EReal) :
    (⟨2, ![16384, 512]⟩ : Shape).Idx → EReal :=
  fun i => projOut (rowOf x (i 0)) (rowOf h (i 0)) (rowOf c (i 0)) (mat W) (vec b) (vec ga) (vec be) (mat Wp) (i 1)

end Cert.LnLstm

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.RefValue.lean ====
/-
  The reference program's two results, read index by index on the extended reals, are the layer-normalised LSTM cell
  of `Spec.lean`: the gate pre-activations are the joined row `[x, h]` against the rows of `W` plus the bias, which is
  the two half-row sums; the logistic function appears expanded as 1 / (1 + exp(−g)), which is the extended reals'
  logistic function by definition; the row means are sums from the zero literal, which adds nothing.
-/
import proofs.«113734_j48017734369974_2_alg».proof.Proof.Gen.ReferenceIdeal.Read
import proofs.«113734_j48017734369974_2_alg».proof.Proof.Spec
import proofs.«113734_j48017734369974_2_alg».proof.Proof.LibRowOps
import Idealize.ShloMosaic.Lib.IdealHost

noncomputable section

namespace Cert.ReferenceIdeal.RefValue

open Cert.ReferenceIdeal Cert.ReferenceIdeal.Gen Cert.ReferenceIdeal.Read Cert.LnLstm Cert.Lib.RowOps
open Idealize.ShloMosaic Idealize.ShloMosaic.ValueIdx

variable (x0 x1 x2 : FVec Ideal S16384x512 .f32) (x3 : FVec Ideal S2048x1024 .f32) (x4 : FVec Ideal S2048 .f32)
  (x5 x6 : FVec Ideal S512 .f32) (x7 : FVec Ideal S512x512 .f32)

/-- The joined row `[x, h]` at a column of its first half is the row of `x`. -/
theorem joined_lo (r : Fin 16384) (k : Fin 512) : val_main_v0 (F := Ideal) x0 x1 (ix2 r (lo k)) = rowOf x0 r k := by
  unfold val_main_v0
  exact concat_cols_left (a := 16384) (b₁ := 512) (b₂ := 512) x0 x1 _ r (lo k) k.isLt

/-- The joined row `[x, h]` at a column of its second half is the row of `h`. -/
theorem joined_hi (r : Fin 16384) (k : Fin 512) : val_main_v0 (F := Ideal) x0 x1 (ix2 r (hi k)) = rowOf x1 r k := by
  unfold val_main_v0
  exact concat_cols_right (a := 16384) (b₁ := 512) (b₂ := 512) x0 x1 _ r (hi k) k rfl

/-- The gate pre-activations: row `r`, gate column `n`. -/
theorem gates_at (r : Fin 16384) (n : Fin 2048) :
    val_main_v5 (F := Ideal) x0 x1 x3 x4 (ix2 r n) = gate (rowOf x0 r) (rowOf x1 r) (mat x3) (vec x4) n := by
  rw [val_main_v5_apply, val_main_v2_apply, val_main_v4_apply, val_main_v3_apply]
  have hb : x4 (idx_main_v3 (idx_main_v4 (ix2 r n))) = vec x4 n :=
    congrArg x4 (funext fun a => by match a with | ⟨0, _⟩ => rfl)
  have hs : ∀ k : Fin 1024, val_main_v0 (F := Ideal) x0 x1 (lidx_main_v2 (ix2 r n) k) * val_main_v1 (F := Ideal) x3 (ridx_main_v2 (ix2 r n) k)
      = val_main_v0 (F := Ideal) x0 x1 (ix2 r k) * mat x3 n k := by
    intro k
    rw [val_main_v1_apply]
    refine congrArg₂ (· * ·) (congrArg _ (funext fun a => by match a with | ⟨0, _⟩ => rfl | ⟨1, _⟩ => rfl))
      (congrArg x3 (funext fun a => by match a with | ⟨0, _⟩ => rfl | ⟨1, _⟩ => rfl))
  rw [hb, Finset.sum_congr rfl fun k _ => hs k]
  exact gate_eq_joined _ _ _ _ n (fun k => val_main_v0 (F := Ideal) x0 x1 (ix2 r k)) (joined_lo x0 x1 r) (joined_hi x0 x1 r)

/-- The expanded logistic function 1 / (1 + exp(−g)) with the literal one is the extended reals' logistic function. -/
theorem logistic_expanded (g : EReal) :
    Ideal.div (Ideal.ofBits .f32 0x3F800000#32) (Ideal.ofBits .f32 0x3F800000#32 + Ideal.exp (-g)) = Ideal.logistic g := by
  rw [Ideal.ofBits_one_f32]; rfl

/-- The input gate: the logistic function of gate column `j`. -/
theorem inGate_at (r : Fin 16384) (j : Fin 512) :
    val_main_v15 (F := Ideal) x0 x1 x3 x4 (ix2 r j) = Ideal.logistic (gate (rowOf x0 r) (rowOf x1 r) (mat x3) (vec x4) (col 0 (by omega) j)) := by
  rw [val_main_v15_apply, val_main_v14_apply, val_main_cst_0_apply, val_main_v13_apply, val_main_v12_apply, val_main_cst_apply,
    val_main_v11_apply, val_main_v10_apply, val_main_v6_apply]
  have e : idx_main_v6 (ix2 r j) = ix2 r (col 0 (by omega) j) := funext fun a => by match a with | ⟨0, _⟩ => rfl | ⟨1, _⟩ => rfl
  rw [e, gates_at]
  exact logistic_expanded _

/-- The forget gate: the logistic function of gate column `512 + j`. -/
theorem forgetGate_at (r : Fin 16384) (j : Fin 512) :
    val_main_v21 (F := Ideal) x0 x1 x3 x4 (ix2 r j) = Ideal.logistic (gate (rowOf x0 r) (rowOf x1 r) (mat x3) (vec x4) (col 512 (by omega) j)) := by
  rw [val_main_v21_apply, val_main_v20_apply, val_main_cst_2_apply, val_main_v19_apply, val_main_v18_apply, val_main_cst_1_apply,
    val_main_v17_apply, val_main_v16_apply, val_main_v7_apply]
  have e : idx_main_v7 (ix2 r j) = ix2 r (col 512 (by omega) j) := funext fun a => Fin.ext (by
    match a with
    | ⟨0, _⟩ => rfl
    | ⟨1, _⟩ => show 512 + j.val = j.val + 512; omega)
  rw [e, gates_at]
  exact logistic_expanded _

/-- The candidate: tanh of gate column `1024 + j`. -/
theorem candidate_at (r : Fin 16384) (j : Fin 512) :
    val_main_v22 (F := Ideal) x0 x1 x3 x4 (ix2 r j) = Ideal.tanh (gate (rowOf x0 r) (rowOf x1 r) (mat x3) (vec x4) (col 1024 (by omega) j)) := by
  rw [val_main_v22_apply, val_main_v8_apply]
  have e : idx_main_v8 (ix2 r j) = ix2 r (col 1024 (by omega) j) := funext fun a => Fin.ext (by
    match a with
    | ⟨0, _⟩ => rfl
    | ⟨1, _⟩ => show 1024 + j.val = j.val + 1024; omega)
  rw [e, gates_at]
  rfl

/-- The output gate: the logistic function of gate column `1536 + j`. -/
theorem outGate_at (r : Fin 16384) (j : Fin 512) :
    val_main_v28 (F := Ideal) x0 x1 x3 x4 (ix2 r j) = Ideal.logistic (gate (rowOf x0 r) (rowOf x1 r) (mat x3) (vec x4) (col 1536 (by omega) j)) := by
  rw [val_main_v28_apply, val_main_v27_apply, val_main_cst_4_apply, val_main_v26_apply, val_main_v25_apply, val_main_cst_3_apply,
    val_main_v24_apply, val_main_v23_apply, val_main_v9_apply]
  have e : idx_main_v9 (ix2 r j) = ix2 r (col 1536 (by omega) j) := funext fun a => Fin.ext (by
    match a with
    | ⟨0, _⟩ => rfl
    | ⟨1, _⟩ => show 1536 + j.val = j.val + 1536; omega)
  rw [e, gates_at]
  exact logistic_expanded _

/-- The cell state before normalisation. -/
theorem cell_at (r : Fin 16384) (j : Fin 512) :
    val_main_v31 (F := Ideal) x0 x1 x2 x3 x4 (ix2 r j) = cell (rowOf x0 r) (rowOf x1 r) (rowOf x2 r) (mat x3) (vec x4) j := by
  rw [val_main_v31_apply, val_main_v29_apply, val_main_v30_apply, forgetGate_at, inGate_at, candidate_at]
  rfl

/-- The row mean of the cell state, as the column `[16384, 1]` holds it. -/
theorem mean_at (r : Fin 16384) (u : Fin 1) :
    val_main_v35 (F := Ideal) x0 x1 x2 x3 x4 (ix2 r u) = mean (cell (rowOf x0 r) (rowOf x1 r) (rowOf x2 r) (mat x3) (vec x4)) := by
  rw [val_main_v35_apply, val_main_v34_apply, val_main_cst_6_apply, val_main_v33_apply, val_main_v32_apply, val_main_cst_5_apply]
  have hs : ∀ k : Fin 512, val_main_v31 (F := Ideal) x0 x1 x2 x3 x4 (idx_main_v32 (idx_main_v33 (ix2 r u)) k)
      = cell (rowOf x0 r) (rowOf x1 r) (rowOf x2 r) (mat x3) (vec x4) k := by
    intro k
    rw [← cell_at]
    exact congrArg _ (funext fun a => by match a with | ⟨0, _⟩ => rfl | ⟨1, _⟩ => rfl)
  rw [Finset.sum_congr rfl fun k _ => hs k]
  show Ideal.div (Ideal.ofBits .f32 0x00000000#32 + _) _ = _
  rw [Ideal.ofBits_zero_f32, zero_add]
  rfl

/-- The cell state less its row mean. -/
theorem centred_at (r : Fin 16384) (j : Fin 512) :
    val_main_v44 (F := Ideal) x0 x1 x2 x3 x4 (ix2 r j)
      = cell (rowOf x0 r) (rowOf x1 r) (rowOf x2 r) (mat x3) (vec x4) j - mean (cell (rowOf x0 r) (rowOf x1 r) (rowOf x2 r) (mat x3) (vec x4)) := by
  rw [val_main_v44_apply, val_main_v43_apply, cell_at]
  have e : idx_main_v43 (ix2 r j) = ix2 r (0 : Fin 1) := funext fun a => by match a with | ⟨0, _⟩ => rfl | ⟨1, _⟩ => rfl
  rw [e, mean_at]
  rfl

/-- The same difference, as the variance's operand holds it. -/
theorem centred'_at (r : Fin 16384) (j : Fin 512) :
    val_main_v37 (F := Ideal) x0 x1 x2 x3 x4 (ix2 r j)
      = cell (rowOf x0 r) (rowOf x1 r) (rowOf x2 r) (mat x3) (vec x4) j - mean (cell (rowOf x0 r) (rowOf x1 r) (rowOf x2 r) (mat x3) (vec x4)) := by
  rw [val_main_v37_apply, val_main_v36_apply, cell_at]
  have e : idx_main_v36 (ix2 r j) = ix2 r (0 : Fin 1) := funext fun a => by match a with | ⟨0, _⟩ => rfl | ⟨1, _⟩ => rfl
  rw [e, mean_at]
  rfl

/-- The reciprocal square root of the row variance plus ε, as the column `[16384, 1]` holds it. -/
theorem rstd_at (r : Fin 16384) (u : Fin 1) :
    val_main_v47 (F := Ideal) x0 x1 x2 x3 x4 (ix2 r u)
      = Ideal.rsqrt (mean (fun l => (cell (rowOf x0 r) (rowOf x1 r) (rowOf x2 r) (mat x3) (vec x4) l - mean (cell (rowOf x0 r) (rowOf x1 r) (rowOf x2 r) (mat x3) (vec x4)))
          * (cell (rowOf x0 r) (rowOf x1 r) (rowOf x2 r) (mat x3) (vec x4) l - mean (cell (rowOf x0 r) (rowOf x1 r) (rowOf x2 r) (mat x3) (vec x4))))
        + Ideal.ofBits .f32 0x3727C5AC#32) := by
  rw [val_main_v47_apply, val_main_v46_apply, val_main_v45_apply, val_main_cst_9_apply, val_main_v42_apply, val_main_v41_apply,
    val_main_cst_8_apply, val_main_v40_apply, val_main_v39_apply, val_main_cst_7_apply]
  have hs : ∀ k : Fin 512, val_main_v38 (F := Ideal) x0 x1 x2 x3 x4 (idx_main_v39 (idx_main_v40 (ix2 r u)) k)
      = (cell (rowOf x0 r) (rowOf x1 r) (rowOf x2 r) (mat x3) (vec x4) k - mean (cell (rowOf x0 r) (rowOf x1 r) (rowOf x2 r) (mat x3) (vec x4)))
        * (cell (rowOf x0 r) (rowOf x1 r) (rowOf x2 r) (mat x3) (vec x4) k - mean (cell (rowOf x0 r) (rowOf x1 r) (rowOf x2 r) (mat x3) (vec x4))) := by
    intro k
    have e : idx_main_v39 (idx_main_v40 (ix2 r u)) k = ix2 r k := funext fun a => by match a with | ⟨0, _⟩ => rfl | ⟨1, _⟩ => rfl
    rw [e, val_main_v38_apply, centred'_at]
    rfl
  rw [Finset.sum_congr rfl fun k _ => hs k]
  show Ideal.rsqrt (Ideal.div (Ideal.ofBits .f32 0x00000000#32 + _) _ + _) = _
  rw [Ideal.ofBits_zero_f32, zero_add]
  rfl

/-- THE SECOND RESULT: the normalised cell state array. -/
theorem cell_result : val_main_v55 (F := Ideal) x0 x1 x2 x3 x4 x5 x6 = cellArr x0 x1 x2 x3 x4 x5 x6 := by
  funext i
  obtain ⟨r, j, rfl⟩ : ∃ (r : Fin 16384) (j : Fin 512), i = ix2 r j := ⟨i 0, i 1, eq_ix2 i⟩
  rw [val_main_v55_apply, val_main_v54_apply, val_main_v53_apply, val_main_v52_apply, val_main_v51_apply, val_main_v50_apply,
    val_main_v49_apply, val_main_v48_apply, centred_at]
  have e : idx_main_v48 (ix2 r j) = ix2 r (0 : Fin 1) := funext fun a => by match a with | ⟨0, _⟩ => rfl | ⟨1, _⟩ => rfl
  have e5 : x5 (idx_main_v50 (idx_main_v51 (ix2 r j))) = vec x5 j := congrArg x5 (funext fun a => by match a with | ⟨0, _⟩ => rfl)
  have e6 : x6 (idx_main_v53 (idx_main_v54 (ix2 r j))) = vec x6 j := congrArg x6 (funext fun a => by match a with | ⟨0, _⟩ => rfl)
  rw [e, rstd_at, e5, e6]
  rfl

/-- THE FIRST RESULT: the projected output array. -/
theorem out_result : val_main_v59 (F := Ideal) x0 x1 x2 x3 x4 x5 x6 x7 = outArr x0 x1 x2 x3 x4 x5 x6 x7 := by
  funext i
  obtain ⟨r, n, rfl⟩ : ∃ (r : Fin 16384) (n : Fin 512), i = ix2 r n := ⟨i 0, i 1, eq_ix2 i⟩
  rw [val_main_v59_apply]
  show _ = projOut _ _ _ _ _ _ _ _ n
  unfold projOut
  refine Finset.sum_congr rfl fun k _ => ?_
  have el : lidx_main_v59 (ix2 r n) k = ix2 r k := funext fun a => by match a with | ⟨0, _⟩ => rfl | ⟨1, _⟩ => rfl
  have er : x7 (idx_main_v58 (ridx_main_v59 (ix2 r n) k)) = mat x7 n k := congrArg x7 (funext fun a => by match a with | ⟨0, _⟩ => rfl | ⟨1, _⟩ => rfl)
  rw [el, val_main_v58_apply, er, val_main_v57_apply, val_main_v56_apply, outGate_at, cell_result]
  rfl

end Cert.ReferenceIdeal.RefValue

end
-- ==== Proof.LibMatmulSum.lean ====
/-
  The matrix unit's product with ONE contracted axis into a zero accumulator, on the extended reals and whatever
  precision it is asked for, read at an index as a plain sum over that axis: the caller names the two operands'
  indices at contraction position k, and the sum is re-indexed by the axis's one coordinate.
-/
import Idealize.ShloMosaic.Lib.ValueIdx
import Idealize.ShloMosaic.PureOps.Ideal.Laws

namespace Cert.Lib.MatmulSum

open Idealize.ShloMosaic Idealize.ShloMosaic.ValueIdx

/-- A product into zeros at an output index is the sum over the contracted axis of the operands' products, each read
    where the dimension numbers put it. -/
theorem matmul_zero_eq_sum {sl sr so : Shape} {φ₁ φ₂ : FTy} (d : DotDims sl sr so) (prec : Option ContractPrecision)
    (K : Nat) (hr : d.contr.rank = 1) (hs : d.contr.size ⟨0, by omega⟩ = K)
    (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d prec x w (constant so .f32 0x00000000#32) j = ∑ k : Fin K, x (li k) * w (ri k) := by
  show FloatOps.matmul d prec x w (constant so .f32 0x00000000#32) j = _
  rw [Ideal.matmul_constant_zero_apply, ← Equiv.sum_comp (contrEquiv1 d K hr hs).symm]
  exact Finset.sum_congr rfl fun k _ => by rw [hl k, hw k]

end Cert.Lib.MatmulSum
-- ==== Proof.KernelRow.lean ====
/-
  One grid point of the kernel, read row by row on the extended reals.

  A grid point holds 512 batch rows. From the point's blocks of `x`, `h` and `c` (512 × 512 each) and the whole
  `W`, bias, scale, shift and `Wp`, the body's two stored values at row `p` are the layer-normalised LSTM cell of
  `Spec.lean` applied to row `p` of the three blocks: each matrix-unit product into zeros is a plain sum over its one
  contracted axis (both operands contract their LAST axis, so `W` and `Wp` are read row by row), the two column slices of
  `W` are the two halves of its rows, a change of float format is the identity, each lane sum is the row's sum, and the
  column-shaped row statistics are repeated along the row.
-/
import proofs.«113734_j48017734369974_2_alg».proof.Proof.Gen.KernelIdeal.Skeleton
import proofs.«113734_j48017734369974_2_alg».proof.Proof.Spec
import proofs.«113734_j48017734369974_2_alg».proof.Proof.LibRowOps
import proofs.«113734_j48017734369974_2_alg».proof.Proof.LibMatmulSum
import Idealize.ShloMosaic.Lib.Pipeline.Value
import Idealize.ShloMosaic.Lib.ValueIdx

noncomputable section

namespace Cert.KernelIdeal.RowValue

open Cert.KernelIdeal Cert.KernelIdeal.Gen Cert.LnLstm Cert.Lib.RowOps Cert.Lib.MatmulSum
open Idealize.ShloMosaic Idealize.ShloMosaic.ValueIdx

/-- A one-row array `[1, b]` repeated down `a` rows reads, at `(r, c)`, the row at `c`. -/
theorem broadcastTo_1b_ab_apply {α : Type} {a b : ℕ} (v : (⟨2, ![1, b]⟩ : Shape).Idx → α) (h : (⟨2, ![1, b]⟩ : Shape).Broadcasts ⟨2, ![a, b]⟩)
    (r : Fin a) (c : Fin b) : broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The left operand's row coordinate is the output's. -/
theorem gates_lhs0 (i : S512x2048.Idx) (q : dot_S512x512_S2048x512_S512x2048_1_1_0_0_n_n.contr.Idx) : (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
/-- The right operand's row coordinate is the output's column. -/
theorem gates_rhs0 (i : S512x2048.Idx) (q : dot_S512x512_S2048x512_S512x2048_1_1_0_0_n_n.contr.Idx) : (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

/-- The left operand's row coordinate is the output's. -/
theorem proj_lhs0 (i : S512x512.Idx) (q : dot_S512x512_S512x512_S512x512_1_1_0_0_n_n.contr.Idx) : (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl
/-- The right operand's row coordinate is the output's column. -/
theorem proj_rhs0 (i : S512x512.Idx) (q : dot_S512x512_S512x512_S512x512_1_1_0_0_n_n.contr.Idx) : (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl

/-- The gates' product: both operands contract their last axis, so entry `(p, n)` is row `p` against row `n`. -/
theorem gatesMatmul_at (A : FVec Ideal S512x512 .bf16) (B : FVec Ideal S2048x512 .bf16) (p : Fin 512) (n : Fin 2048) :
    matmul dot_S512x512_S2048x512_S512x2048_1_1_0_0_n_n none A B (constant S512x2048 .f32 0x00000000#32) (ix2 p n)
      = ∑ k : Fin 512, A (ix2 p k) * B (ix2 n k) := by
  refine matmul_zero_eq_sum dot_S512x512_S2048x512_S512x2048_1_1_0_0_n_n none 512 rfl rfl A B (ix2 p n) (fun k => ix2 p k) (fun k => ix2 n k)
    (fun k => ?_) (fun k => ?_)
  · funext a; apply Fin.ext
    match a with
    | ⟨0, _⟩ => exact gates_lhs0 _ _
    | ⟨1, _⟩ =>
      exact (dot_S512x512_S2048x512_S512x2048_1_1_0_0_n_n.lhsIdx_val_of_single rfl _ _).trans
        (contrEquiv1_symm_val dot_S512x512_S2048x512_S512x2048_1_1_0_0_n_n 512 rfl rfl k)
  · funext a; apply Fin.ext
    match a with
    | ⟨0, _⟩ => exact gates_rhs0 _ _
    | ⟨1, _⟩ =>
      exact (dot_S512x512_S2048x512_S512x2048_1_1_0_0_n_n.rhsIdx_val_of_single rfl _ _).trans
        (contrEquiv1_symm_val dot_S512x512_S2048x512_S512x2048_1_1_0_0_n_n 512 rfl rfl k)

/-- The projection's product, of the same form. -/
theorem projMatmul_at (A : FVec Ideal S512x512 .bf16) (B : FVec Ideal S512x512 .bf16) (p : Fin 512) (n : Fin 512) :
    matmul dot_S512x512_S512x512_S512x512_1_1_0_0_n_n none A B (constant S512x512 .f32 0x00000000#32) (ix2 p n)
      = ∑ k : Fin 512, A (ix2 p k) * B (ix2 n k) := by
  refine matmul_zero_eq_sum dot_S512x512_S512x512_S512x512_1_1_0_0_n_n none 512 rfl rfl A B (ix2 p n) (fun k => ix2 p k) (fun k => ix2 n k)
    (fun k => ?_) (fun k => ?_)
  · funext a; apply Fin.ext
    match a with
    | ⟨0, _⟩ => exact proj_lhs0 _ _
    | ⟨1, _⟩ =>
      exact (dot_S512x512_S512x512_S512x512_1_1_0_0_n_n.lhsIdx_val_of_single rfl _ _).trans
        (contrEquiv1_symm_val dot_S512x512_S512x512_S512x512_1_1_0_0_n_n 512 rfl rfl k)
  · funext a; apply Fin.ext
    match a with
    | ⟨0, _⟩ => exact proj_rhs0 _ _
    | ⟨1, _⟩ =>
      exact (dot_S512x512_S512x512_S512x512_1_1_0_0_n_n.rhsIdx_val_of_single rfl _ _).trans
        (contrEquiv1_symm_val dot_S512x512_S512x512_S512x512_1_1_0_0_n_n 512 rfl rfl k)

/-- The first 512 columns of `W`, row `n`. -/
theorem wLo_at (w : FVec Ideal S2048x1024 .bf16) (h1 : S2048x1024.ShapeCasts S2048x1024) (h2 : S2048x1024.Slices ![0, 0] S2048x512)
    (n : Fin 2048) (k : Fin 512) :
    extractStridedSlice S2048x512 ![0, 0] (shapeCast S2048x1024 w h1) h2 (ix2 n k) = w (ix2 n (lo k)) := by
  rw [shapeCast_self]
  exact extractStridedSlice_apply ![0, 0] w h2 (ix2 n k) (ix2 n (lo k)) (fun a => match a with
    | ⟨0, _⟩ => by show n.val = 0 + n.val; omega
    | ⟨1, _⟩ => by show k.val = 0 + k.val; omega)

/-- The last 512 columns of `W`, row `n`. -/
theorem wHi_at (w : FVec Ideal S2048x1024 .bf16) (h1 : S2048x1024.ShapeCasts S2048x1024) (h2 : S2048x1024.Slices ![0, 512] S2048x512)
    (n : Fin 2048) (k : Fin 512) :
    extractStridedSlice S2048x512 ![0, 512] (shapeCast S2048x1024 w h1) h2 (ix2 n k) = w (ix2 n (hi k)) := by
  rw [shapeCast_self]
  exact extractStridedSlice_apply ![0, 512] w h2 (ix2 n k) (ix2 n (hi k)) (fun a => match a with
    | ⟨0, _⟩ => by show n.val = 0 + n.val; omega
    | ⟨1, _⟩ => by show k.val + 512 = 512 + k.val; omega)

/-- A 512-column slice of the 2048 gate columns at offset `o`. -/
theorem gateCols_at (g : FVec Ideal S512x2048 .f32) (o : Nat) (ho : o ≤ 1536) (h : S512x2048.Slices ![0, o] S512x512) (p j : Fin 512) :
    extractStridedSlice S512x512 ![0, o] g h (ix2 p j) = g (ix2 p (col o ho j)) :=
  extractStridedSlice_apply ![0, o] g h (ix2 p j) (ix2 p (col o ho j)) (fun a => match a with
    | ⟨0, _⟩ => by show p.val = 0 + p.val; omega
    | ⟨1, _⟩ => by show j.val + o = o + j.val; omega)

variable (P0 P1 P4 : Vec Ideal S512x512 .f32) (P2 : Vec Ideal S2048x1024 .bf16) (P3 : Vec Ideal S1x2048 .f32)
  (P5 P6 : Vec Ideal S1x512 .f32) (P7 : Vec Ideal S512x512 .bf16)

/-- The bias row as a function of the gate column. -/
abbrev rowVec {b : Nat} (v : (⟨2, ![1, b]⟩ : Shape).Idx → EReal) : Fin b → EReal := fun n => v (ix2 (0 : Fin 1) n)

/-- The gate pre-activations of row `p` of the point's blocks. -/
theorem gate_at (p : Fin 512) (n : Fin 2048) :
    k0_pay3 P0 P1 P2 P3 (ix2 p n) = gate (rowOf P0 p) (rowOf P1 p) (mat P2) (rowVec P3) n := by
  unfold k0_pay3 gate
  show matmul (F := Ideal) _ none _ _ _ (ix2 p n) + matmul (F := Ideal) _ none _ _ _ (ix2 p n) + broadcastTo S512x2048 _ _ (ix2 p n) = _
  refine congrArg₂ (· + ·) (congrArg₂ (· + ·) ?_ ?_) ?_
  · exact (gatesMatmul_at _ _ p n).trans (Finset.sum_congr rfl fun k _ => congrArg₂ (· * ·) rfl (wLo_at P2 _ _ n k))
  · exact (gatesMatmul_at _ _ p n).trans (Finset.sum_congr rfl fun k _ => congrArg₂ (· * ·) rfl (wHi_at P2 _ _ n k))
  · refine (broadcastTo_1b_ab_apply _ _ p n).trans ?_
    rw [shapeCast_self]

/-- The cell state before normalisation, row `p`. -/
theorem cell_at (p j : Fin 512) :
    k0_pay5 P0 P1 P4 P2 P3 (ix2 p j) = cell (rowOf P0 p) (rowOf P1 p) (rowOf P4 p) (mat P2) (rowVec P3) j := by
  unfold k0_pay5 cell
  show Ideal.logistic (extractStridedSlice S512x512 ![0, 512] (k0_pay3 P0 P1 P2 P3) _ (ix2 p j)) * P4 (ix2 p j)
      + Ideal.logistic (extractStridedSlice S512x512 ![0, 0] (k0_pay3 P0 P1 P2 P3) _ (ix2 p j))
        * Ideal.tanh (extractStridedSlice S512x512 ![0, 1024] (k0_pay3 P0 P1 P2 P3) _ (ix2 p j)) = _
  rw [gateCols_at _ 512 (by omega), gateCols_at _ 0 (by omega), gateCols_at _ 1024 (by omega), gate_at, gate_at, gate_at]

/-- The row mean of the cell state, as the column `[512, 1]` holds it. -/
theorem mean_at (p : Fin 512) (u : Fin 1) :
    k0_pay6 P0 P1 P4 P2 P3 (ix2 p u) = mean (cell (rowOf P0 p) (rowOf P1 p) (rowOf P4 p) (mat P2) (rowVec P3)) := by
  unfold k0_pay6 mean
  show Ideal.div (shapeCast S512x1 (multiReduction .add [1] S512 (k0_pay5 P0 P1 P4 P2 P3) 0x00000000#32 _ _ _) _ (ix2 p u)) _ = _
  rw [shapeCast_a_a1_apply, rowSum_f32_apply]
  exact congrArg₂ Ideal.div (Finset.sum_congr rfl fun k _ => cell_at P0 P1 P4 P2 P3 p k) rfl

/-- The cell state less its row mean. -/
theorem centred_at (p j : Fin 512) :
    k0_pay7 P0 P1 P4 P2 P3 (ix2 p j)
      = cell (rowOf P0 p) (rowOf P1 p) (rowOf P4 p) (mat P2) (rowVec P3) j - mean (cell (rowOf P0 p) (rowOf P1 p) (rowOf P4 p) (mat P2) (rowVec P3)) := by
  unfold k0_pay7
  show k0_pay5 P0 P1 P4 P2 P3 (ix2 p j) - broadcastTo S512x512 (k0_pay6 P0 P1 P4 P2 P3) _ (ix2 p j) = _
  rw [broadcastTo_a1_ab_apply, cell_at, mean_at]

/-- The row variance plus ε, as the column `[512, 1]` holds it. -/
theorem varEps_at (p : Fin 512) (u : Fin 1) :
    k0_pay8 P0 P1 P4 P2 P3 (ix2 p u)
      = mean (fun l => (cell (rowOf P0 p) (rowOf P1 p) (rowOf P4 p) (mat P2) (rowVec P3) l - mean (cell (rowOf P0 p) (rowOf P1 p) (rowOf P4 p) (mat P2) (rowVec P3)))
          * (cell (rowOf P0 p) (rowOf P1 p) (rowOf P4 p) (mat P2) (rowVec P3) l - mean (cell (rowOf P0 p) (rowOf P1 p) (rowOf P4 p) (mat P2) (rowVec P3))))
        + Ideal.ofBits .f32 0x3727C5AC#32 := by
  unfold k0_pay8 mean
  show Ideal.div (shapeCast S512x1 (multiReduction .add [1] S512
      (mulf (subf (k0_pay5 P0 P1 P4 P2 P3) (broadcastTo S512x512 (k0_pay6 P0 P1 P4 P2 P3) _))
        (subf (k0_pay5 P0 P1 P4 P2 P3) (broadcastTo S512x512 (k0_pay6 P0 P1 P4 P2 P3) _))) 0x00000000#32 _ _ _) _ (ix2 p u)) _ + _ = _
  rw [shapeCast_a_a1_apply, rowSum_f32_apply]
  refine congrArg₂ (· + ·) (congrArg₂ Ideal.div (Finset.sum_congr rfl fun k _ => ?_) rfl) rfl
  show (k0_pay5 P0 P1 P4 P2 P3 (ix2 p k) - broadcastTo S512x512 (k0_pay6 P0 P1 P4 P2 P3) _ (ix2 p k))
      * (k0_pay5 P0 P1 P4 P2 P3 (ix2 p k) - broadcastTo S512x512 (k0_pay6 P0 P1 P4 P2 P3) _ (ix2 p k)) = _
  rw [broadcastTo_a1_ab_apply, cell_at, mean_at]
  rfl

/-- The normalising arithmetic on any centred block, variance column, scale row and shift row. -/
theorem scaleShift_at (v39 : FVec Ideal S512x512 .f32) (v41 : FVec Ideal S512x1 .f32) (v45 v49 : Vec Ideal S1x512 .f32) (p j : Fin 512) :
    k0_pay1 v39 v41 v45 v49 (ix2 p j) = v39 (ix2 p j) * Ideal.rsqrt (v41 (ix2 p (0 : Fin 1))) * v45 (ix2 (0 : Fin 1) j) + v49 (ix2 (0 : Fin 1) j) := by
  unfold k0_pay1
  show v39 (ix2 p j) * broadcastTo S512x512 (rsqrt v41) _ (ix2 p j) * broadcastTo S512x512 (shapeCast S1x512 v45 _) _ (ix2 p j)
      + broadcastTo S512x512 (shapeCast S1x512 v49 _) _ (ix2 p j) = _
  rw [broadcastTo_a1_ab_apply, broadcastTo_1b_ab_apply, broadcastTo_1b_ab_apply, shapeCast_self, shapeCast_self]
  rfl

/-- THE SECOND STORED VALUE: the normalised cell state of row `p`. -/
theorem cellOut_at (p j : Fin 512) :
    k0_pay1 (k0_pay7 P0 P1 P4 P2 P3) (k0_pay8 P0 P1 P4 P2 P3) P5 P6 (ix2 p j)
      = cellOut (rowOf P0 p) (rowOf P1 p) (rowOf P4 p) (mat P2) (rowVec P3) (rowVec P5) (rowVec P6) j := by
  rw [scaleShift_at, centred_at, varEps_at]
  rfl

/-- The output gate of row `p`. -/
theorem outGate_at (p j : Fin 512) :
    k0_pay4 P0 P1 P2 P3 (ix2 p j) = Ideal.logistic (gate (rowOf P0 p) (rowOf P1 p) (mat P2) (rowVec P3) (col 1536 (by omega) j)) := by
  unfold k0_pay4
  show Ideal.logistic (extractStridedSlice S512x512 ![0, 1536] (k0_pay3 P0 P1 P2 P3) _ (ix2 p j)) = _
  rw [gateCols_at _ 1536 (by omega), gate_at]

/-- The projecting arithmetic on any gate block and normalised block. -/
theorem project_at (v23 v39 : FVec Ideal S512x512 .f32) (v41 : FVec Ideal S512x1 .f32) (v45 v49 : Vec Ideal S1x512 .f32) (v57 : Vec Ideal S512x512 .bf16)
    (p n : Fin 512) :
    k0_pay2 v23 v39 v41 v45 v49 v57 (ix2 p n)
      = ∑ k : Fin 512, (v23 (ix2 p k) * Ideal.tanh (k0_pay1 v39 v41 v45 v49 (ix2 p k))) * v57 (ix2 n k) := by
  unfold k0_pay2
  show matmul (F := Ideal) dot_S512x512_S512x512_S512x512_1_1_0_0_n_n none _ (shapeCast S512x512 v57 _) _ (ix2 p n) = _
  rw [shapeCast_self]
  exact projMatmul_at _ _ p n

/-- THE FIRST STORED VALUE: the projected output of row `p`. -/
theorem projOut_at (p n : Fin 512) :
    k0_pay2 (k0_pay4 P0 P1 P2 P3) (k0_pay7 P0 P1 P4 P2 P3) (k0_pay8 P0 P1 P4 P2 P3) P5 P6 P7 (ix2 p n)
      = projOut (rowOf P0 p) (rowOf P1 p) (rowOf P4 p) (mat P2) (rowVec P3) (rowVec P5) (rowVec P6) (mat P7) n := by
  rw [project_at]
  unfold projOut
  refine Finset.sum_congr rfl fun k _ => ?_
  rw [outGate_at, cellOut_at]

/-- The second stored value at any index of the block. -/
theorem cellOut_idx (y : S512x512.Idx) :
    k0_pay1 (k0_pay7 P0 P1 P4 P2 P3) (k0_pay8 P0 P1 P4 P2 P3) P5 P6 y
      = cellOut (rowOf P0 (y 0)) (rowOf P1 (y 0)) (rowOf P4 (y 0)) (mat P2) (rowVec P3) (rowVec P5) (rowVec P6) (y 1) := by
  exact (congrArg (k0_pay1 (k0_pay7 P0 P1 P4 P2 P3) (k0_pay8 P0 P1 P4 P2 P3) P5 P6) (eq_ix2 y)).trans (cellOut_at P0 P1 P4 P2 P3 P5 P6 (y 0) (y 1))

/-- The first stored value at any index of the block. -/
theorem projOut_idx (y : S512x512.Idx) :
    k0_pay2 (k0_pay4 P0 P1 P2 P3) (k0_pay7 P0 P1 P4 P2 P3) (k0_pay8 P0 P1 P4 P2 P3) P5 P6 P7 y
      = projOut (rowOf P0 (y 0)) (rowOf P1 (y 0)) (rowOf P4 (y 0)) (mat P2) (rowVec P3) (rowVec P5) (rowVec P6) (mat P7) (y 1) := by
  exact (congrArg (k0_pay2 (k0_pay4 P0 P1 P2 P3) (k0_pay7 P0 P1 P4 P2 P3) (k0_pay8 P0 P1 P4 P2 P3) P5 P6 P7) (eq_ix2 y)).trans
    (projOut_at P0 P1 P4 P2 P3 P5 P6 P7 (y 0) (y 1))

end Cert.KernelIdeal.RowValue

end
-- ==== Proof.KernelValue.lean ====
/-
  The kernel's two result arrays after the run, as whole-array functions of the argument arrays.

  The grid has 32 points; point `t` holds batch rows `512·t … 512·t + 511` of `x`, `h`, `c` and of both results, and the
  whole of the weights, bias, scale and shift, which the host prepared before the launch (a change of float format,
  the identity on the extended reals, for the two matrices; a reshape to one row for the three vectors). What point
  `t` writes back is therefore rows `512·t …` of the layer-normalised LSTM cell of the arguments, and the 32 blocks tile
  the 16384 rows: the point that covers row `r` is `r / 512`.
-/
import proofs.«113734_j48017734369974_2_alg».proof.Proof.Gen.KernelIdeal.Value
import proofs.«113734_j48017734369974_2_alg».proof.Proof.KernelRow
import Idealize.ShloMosaic.Lib.StableHlo.Run

set_option maxRecDepth 16384

noncomputable section

namespace Cert.KernelIdeal.ArrValue

open Cert.KernelIdeal Cert.KernelIdeal.Gen Cert.LnLstm Cert.Lib.RowOps
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows sit at block row `t`, block column 0; the resident
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Batch row `512·t + p`: row `p` of point `t`'s block. -/
abbrev rowAt (t : Fin cfg0.N) (p : Fin 512) : Fin 16384 :=
  ⟨t.val * 512 + p.val, by have h1 : t.val < 32 := t.isLt; have h2 := p.isLt; omega⟩

/-! ## The arrays the host prepared -/

theorem W_prepared (c : Dev nD) : (V m c main_v0 : S2048x1024.Idx → EReal) = m ((c : Thread nD τ).loc main_arg3) := by
  dsimp only [Gen.V, Gen.hostOps0]; after_results; rfl

theorem Wp_prepared (c : Dev nD) : (V m c main_v1 : S512x512.Idx → EReal) = m ((c : Thread nD τ).loc main_arg7) := by
  dsimp only [Gen.V, Gen.hostOps0]; after_results; rfl

theorem b_prepared (c : Dev nD) :
    (V m c main_v2 : S1x2048.Idx → EReal) = shapeCast S1x2048 (m ((c : Thread nD τ).loc main_arg4)) shapeCasts_S2048_S1x2048 := by
  dsimp only [Gen.V, Gen.hostOps0]; after_results; rfl

theorem scale_prepared (c : Dev nD) :
    (V m c main_v3 : S1x512.Idx → EReal) = shapeCast S1x512 (m ((c : Thread nD τ).loc main_arg5)) shapeCasts_S512_S1x512 := by
  dsimp only [Gen.V, Gen.hostOps0]; after_results; rfl

theorem shift_prepared (c : Dev nD) :
    (V m c main_v4 : S1x512.Idx → EReal) = shapeCast S1x512 (m ((c : Thread nD τ).loc main_arg6)) shapeCasts_S512_S1x512 := by
  dsimp only [Gen.V, Gen.hostOps0]; after_results; rfl

/-- A vector reshaped to one row reads, at `(0, n)`, the vector at `n`. -/
theorem oneRow_at {b : ℕ} (x : (⟨1, ![b]⟩ : Shape).Idx → EReal) (h : (⟨1, ![b]⟩ : Shape).ShapeCasts ⟨2, ![1, b]⟩) (u : Fin 1) (n : Fin b) :
    shapeCast ⟨2, ![1, b]⟩ x h (ix2 u n) = x (ix1 n) :=
  shapeCast_apply x h _ _ (by
    have hu : u.val = 0 := by omega
    rw [Shape.rowMajor_val_two, Shape.rowMajor_val_one]
    show n.val = u.val * b + n.val
    rw [hu]; omega)

/-! ## Each window's block at a point, read at an index -/

theorem xBlock_at (c : Dev nD) (t : Fin cfg0.N) (y : S512x512.Idx) :
    iblk m c 0 t y = m ((c : Thread nD τ).loc main_arg0) (ix2 (rowAt t (y 0)) (y 1)) := by
  show V m c main_arg0 (((cfg0.win 0).blk t).view.emb y) = _
  rw [V_main_arg0 m c]
  obtain ⟨e0, e1, -⟩ := idx_facts t
  refine congrArg _ (funext fun a => Fin.ext ?_)
  match a with
  | ⟨0, _⟩ => show win0_0.index t (0 : Fin 2) * 512 + 1 * (y 0).val = t.val * 512 + (y 0).val; rw [e0]; omega
  | ⟨1, _⟩ => show win0_0.index t (1 : Fin 2) * 512 + 1 * (y 1).val = (y 1).val; rw [e1]; omega

theorem hBlock_at (c : Dev nD) (t : Fin cfg0.N) (y : S512x512.Idx) :
    iblk m c 1 t y = m ((c : Thread nD τ).loc main_arg1) (ix2 (rowAt t (y 0)) (y 1)) := by
  show V m c main_arg1 (((cfg0.win 1).blk t).view.emb y) = _
  rw [V_main_arg1 m c]
  obtain ⟨-, -, e0, e1, -⟩ := idx_facts t
  refine congrArg _ (funext fun a => Fin.ext ?_)
  match a with
  | ⟨0, _⟩ => show win0_1.index t (0 : Fin 2) * 512 + 1 * (y 0).val = t.val * 512 + (y 0).val; rw [e0]; omega
  | ⟨1, _⟩ => show win0_1.index t (1 : Fin 2) * 512 + 1 * (y 1).val = (y 1).val; rw [e1]; omega

theorem cBlock_at (c : Dev nD) (t : Fin cfg0.N) (y : S512x512.Idx) :
    iblk m c 2 t y = m ((c : Thread nD τ).loc main_arg2) (ix2 (rowAt t (y 0)) (y 1)) := by
  show V m c main_arg2 (((cfg0.win 2).blk t).view.emb y) = _
  rw [V_main_arg2 m c]
  obtain ⟨-, -, -, -, e0, e1, -⟩ := idx_facts t
  refine congrArg _ (funext fun a => Fin.ext ?_)
  match a with
  | ⟨0, _⟩ => show win0_2.index t (0 : Fin 2) * 512 + 1 * (y 0).val = t.val * 512 + (y 0).val; rw [e0]; omega
  | ⟨1, _⟩ => show win0_2.index t (1 : Fin 2) * 512 + 1 * (y 1).val = (y 1).val; rw [e1]; omega

theorem WBlock_at (c : Dev nD) (t : Fin cfg0.N) (y : S2048x1024.Idx) :
    iblk m c 3 t y = m ((c : Thread nD τ).loc main_arg3) y := by
  show V m c main_v0 (((cfg0.win 3).blk t).view.emb y) = _
  rw [W_prepared m c]
  obtain ⟨-, -, -, -, -, -, e0, e1, -⟩ := idx_facts t
  refine congrArg _ (funext fun a => Fin.ext ?_)
  match a with
  | ⟨0, _⟩ => show win0_3.index t (0 : Fin 2) * 2048 + 1 * (y 0).val = (y 0).val; rw [e0]; omega
  | ⟨1, _⟩ => show win0_3.index t (1 : Fin 2) * 1024 + 1 * (y 1).val = (y 1).val; rw [e1]; omega

theorem bBlock_at (c : Dev nD) (t : Fin cfg0.N) (n : Fin 2048) :
    iblk m c 4 t (ix2 (0 : Fin 1) n) = m ((c : Thread nD τ).loc main_arg4) (ix1 n) := by
  show V m c main_v2 (((cfg0.win 4).blk t).view.emb (ix2 (0 : Fin 1) n)) = _
  rw [b_prepared m c]
  obtain ⟨-, -, -, -, -, -, -, -, e0, e1, -⟩ := idx_facts t
  refine (congrArg _ (funext fun a => Fin.ext ?_)).trans (oneRow_at _ _ (0 : Fin 1) n)
  match a with
  | ⟨0, _⟩ => show win0_4.index t (0 : Fin 2) * 1 + 1 * 0 = 0; rw [e0]
  | ⟨1, _⟩ => show win0_4.index t (1 : Fin 2) * 2048 + 1 * n.val = n.val; rw [e1]; omega

theorem scaleBlock_at (c : Dev nD) (t : Fin cfg0.N) (n : Fin 512) :
    iblk m c 5 t (ix2 (0 : Fin 1) n) = m ((c : Thread nD τ).loc main_arg5) (ix1 n) := by
  show V m c main_v3 (((cfg0.win 5).blk t).view.emb (ix2 (0 : Fin 1) n)) = _
  rw [scale_prepared m c]
  obtain ⟨-, -, -, -, -, -, -, -, -, -, e0, e1, -⟩ := idx_facts t
  refine (congrArg _ (funext fun a => Fin.ext ?_)).trans (oneRow_at _ _ (0 : Fin 1) n)
  match a with
  | ⟨0, _⟩ => show win0_5.index t (0 : Fin 2) * 1 + 1 * 0 = 0; rw [e0]
  | ⟨1, _⟩ => show win0_5.index t (1 : Fin 2) * 512 + 1 * n.val = n.val; rw [e1]; omega

theorem shiftBlock_at (c : Dev nD) (t : Fin cfg0.N) (n : Fin 512) :
    iblk m c 6 t (ix2 (0 : Fin 1) n) = m ((c : Thread nD τ).loc main_arg6) (ix1 n) := by
  show V m c main_v4 (((cfg0.win 6).blk t).view.emb (ix2 (0 : Fin 1) n)) = _
  rw [shift_prepared m c]
  obtain ⟨-, -, -, -, -, -, -, -, -, -, -, -, e0, e1, -⟩ := idx_facts t
  refine (congrArg _ (funext fun a => Fin.ext ?_)).trans (oneRow_at _ _ (0 : Fin 1) n)
  match a with
  | ⟨0, _⟩ => show win0_6.index t (0 : Fin 2) * 1 + 1 * 0 = 0; rw [e0]
  | ⟨1, _⟩ => show win0_6.index t (1 : Fin 2) * 512 + 1 * n.val = n.val; rw [e1]; omega

theorem WpBlock_at (c : Dev nD) (t : Fin cfg0.N) (y : S512x512.Idx) :
    iblk m c 7 t y = m ((c : Thread nD τ).loc main_arg7) y := by
  show V m c main_v1 (((cfg0.win 7).blk t).view.emb y) = _
  rw [Wp_prepared m c]
  obtain ⟨-, -, -, -, -, -, -, -, -, -, -, -, -, -, e0, e1, -⟩ := idx_facts t
  refine congrArg _ (funext fun a => Fin.ext ?_)
  match a with
  | ⟨0, _⟩ => show win0_7.index t (0 : Fin 2) * 512 + 1 * (y 0).val = (y 0).val; rw [e0]; omega
  | ⟨1, _⟩ => show win0_7.index t (1 : Fin 2) * 512 + 1 * (y 1).val = (y 1).val; rw [e1]; omega

/-! ## What a point writes back -/

/-- The cell of row `p` of point `t`'s blocks is the cell of batch row `512·t + p` of the arguments. -/
theorem cellOut_blocks (c : Dev nD) (t : Fin cfg0.N) (p j : Fin 512) :
    cellOut (rowOf (iblk m c 0 t) p) (rowOf (iblk m c 1 t) p) (rowOf (iblk m c 2 t) p) (mat (iblk m c 3 t)) (RowValue.rowVec (iblk m c 4 t))
        (RowValue.rowVec (iblk m c 5 t)) (RowValue.rowVec (iblk m c 6 t)) j
      = cellOut (rowOf (m ((c : Thread nD τ).loc main_arg0)) (rowAt t p)) (rowOf (m ((c : Thread nD τ).loc main_arg1)) (rowAt t p))
          (rowOf (m ((c : Thread nD τ).loc main_arg2)) (rowAt t p)) (mat (m ((c : Thread nD τ).loc main_arg3))) (vec (m ((c : Thread nD τ).loc main_arg4)))
          (vec (m ((c : Thread nD τ).loc main_arg5))) (vec (m ((c : Thread nD τ).loc main_arg6))) j := by
  have h0 : rowOf (iblk m c 0 t) p = rowOf (m ((c : Thread nD τ).loc main_arg0)) (rowAt t p) := funext fun k => xBlock_at m c t (ix2 p k)
  have h1 : rowOf (iblk m c 1 t) p = rowOf (m ((c : Thread nD τ).loc main_arg1)) (rowAt t p) := funext fun k => hBlock_at m c t (ix2 p k)
  have h2 : rowOf (iblk m c 2 t) p = rowOf (m ((c : Thread nD τ).loc main_arg2)) (rowAt t p) := funext fun k => cBlock_at m c t (ix2 p k)
  have h3 : mat (iblk m c 3 t) = mat (m ((c : Thread nD τ).loc main_arg3)) := funext fun n => funext fun k => WBlock_at m c t (ix2 n k)
  have h4 : RowValue.rowVec (iblk m c 4 t) = vec (m ((c : Thread nD τ).loc main_arg4)) := funext fun n => bBlock_at m c t n
  have h5 : RowValue.rowVec (iblk m c 5 t) = vec (m ((c : Thread nD τ).loc main_arg5)) := funext fun n => scaleBlock_at m c t n
  have h6 : RowValue.rowVec (iblk m c 6 t) = vec (m ((c : Thread nD τ).loc main_arg6)) := funext fun n => shiftBlock_at m c t n
  rw [h0, h1, h2, h3, h4, h5, h6]

/-- The projected output of row `p` of point `t`'s blocks is that of batch row `512·t + p` of the arguments. -/
theorem projOut_blocks (c : Dev nD) (t : Fin cfg0.N) (p n : Fin 512) :
    projOut (rowOf (iblk m c 0 t) p) (rowOf (iblk m c 1 t) p) (rowOf (iblk m c 2 t) p) (mat (iblk m c 3 t)) (RowValue.rowVec (iblk m c 4 t))
        (RowValue.rowVec (iblk m c 5 t)) (RowValue.rowVec (iblk m c 6 t)) (mat (iblk m c 7 t)) n
      = projOut (rowOf (m ((c : Thread nD τ).loc main_arg0)) (rowAt t p)) (rowOf (m ((c : Thread nD τ).loc main_arg1)) (rowAt t p))
          (rowOf (m ((c : Thread nD τ).loc main_arg2)) (rowAt t p)) (mat (m ((c : Thread nD τ).loc main_arg3))) (vec (m ((c : Thread nD τ).loc main_arg4)))
          (vec (m ((c : Thread nD τ).loc main_arg5))) (vec (m ((c : Thread nD τ).loc main_arg6))) (mat (m ((c : Thread nD τ).loc main_arg7))) n := by
  have h0 : rowOf (iblk m c 0 t) p = rowOf (m ((c : Thread nD τ).loc main_arg0)) (rowAt t p) := funext fun k => xBlock_at m c t (ix2 p k)
  have h1 : rowOf (iblk m c 1 t) p = rowOf (m ((c : Thread nD τ).loc main_arg1)) (rowAt t p) := funext fun k => hBlock_at m c t (ix2 p k)
  have h2 : rowOf (iblk m c 2 t) p = rowOf (m ((c : Thread nD τ).loc main_arg2)) (rowAt t p) := funext fun k => cBlock_at m c t (ix2 p k)
  have h3 : mat (iblk m c 3 t) = mat (m ((c : Thread nD τ).loc main_arg3)) := funext fun n => funext fun k => WBlock_at m c t (ix2 n k)
  have h4 : RowValue.rowVec (iblk m c 4 t) = vec (m ((c : Thread nD τ).loc main_arg4)) := funext fun n => bBlock_at m c t n
  have h5 : RowValue.rowVec (iblk m c 5 t) = vec (m ((c : Thread nD τ).loc main_arg5)) := funext fun n => scaleBlock_at m c t n
  have h6 : RowValue.rowVec (iblk m c 6 t) = vec (m ((c : Thread nD τ).loc main_arg6)) := funext fun n => shiftBlock_at m c t n
  have h7 : mat (iblk m c 7 t) = mat (m ((c : Thread nD τ).loc main_arg7)) := funext fun n => funext fun k => WpBlock_at m c t (ix2 n k)
  rw [h0, h1, h2, h3, h4, h5, h6, h7]

/-- The normalised cell state array of the arguments as launched. -/
abbrev cellOf (c : Dev nD) : S16384x512.Idx → EReal :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The projected output array of the arguments as launched. -/
abbrev outOf (c : Dev nD) : S16384x512.Idx → EReal :=
  outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- WHAT POINT `t` WRITES BACK to the cell-state array is block `t` of the cell of the arguments. -/
theorem flushedCell_eq (c : Dev nD) (t : Fin cfg0.N) :
    (dats m 0 c).flushed 9 t = ((cfg0.win 9).blk t).view.read (Elt Ideal) (cellOf m c) := by
  rw [Value.flushed9]
  unfold out0_9
  rw [View.canon_unit_zero hz]
  simp only [View.ld_unit_zero (S := S512x512) hz, View.ld_unit_zero (S := S2048x1024) hz, View.ld_unit_zero (S := S1x2048) hz,
    View.ld_unit_zero (S := S1x512) hz]
  obtain ⟨-, -, -, -, -, -, -, -, -, -, -, -, -, -, -, -, -, -, e0, e1⟩ := idx_facts t
  funext y
  show k0_pay1 (k0_pay7 (iblk m c 0 t) (iblk m c 1 t) (iblk m c 2 t) (iblk m c 3 t) (iblk m c 4 t))
      (k0_pay8 (iblk m c 0 t) (iblk m c 1 t) (iblk m c 2 t) (iblk m c 3 t) (iblk m c 4 t)) (iblk m c 5 t) (iblk m c 6 t) y
    = cellOf m c (((cfg0.win 9).blk t).view.emb y)
  refine (RowValue.cellOut_idx (iblk m c 0 t) (iblk m c 1 t) (iblk m c 2 t) (iblk m c 3 t) (iblk m c 4 t) (iblk m c 5 t) (iblk m c 6 t) y).trans ?_
  refine (cellOut_blocks m c t (y 0) (y 1)).trans ?_
  have hr : rowAt t (y 0) = (((cfg0.win 9).blk t).view.emb y) 0 := Fin.ext (by
    show t.val * 512 + (y 0).val = win0_9.index t (0 : Fin 2) * 512 + 1 * (y 0).val; rw [e0]; omega)
  have hc : (y 1) = (((cfg0.win 9).blk t).view.emb y) 1 := Fin.ext (by
    show (y 1).val = win0_9.index t (1 : Fin 2) * 512 + 1 * (y 1).val; rw [e1]; omega)
  rw [hr, hc]
  rfl

/-- WHAT POINT `t` WRITES BACK to the output array is block `t` of the projected output of the arguments. -/
theorem flushedOut_eq (c : Dev nD) (t : Fin cfg0.N) :
    (dats m 0 c).flushed 8 t = ((cfg0.win 8).blk t).view.read (Elt Ideal) (outOf m c) := by
  rw [Value.flushed8]
  unfold out0_8
  rw [View.canon_unit_zero hz]
  simp only [View.ld_unit_zero (S := S512x512) hz, View.ld_unit_zero (S := S2048x1024) hz, View.ld_unit_zero (S := S1x2048) hz,
    View.ld_unit_zero (S := S1x512) hz]
  obtain ⟨-, -, -, -, -, -, -, -, -, -, -, -, -, -, -, -, e0, e1, -⟩ := idx_facts t
  funext y
  show k0_pay2 (k0_pay4 (iblk m c 0 t) (iblk m c 1 t) (iblk m c 3 t) (iblk m c 4 t))
      (k0_pay7 (iblk m c 0 t) (iblk m c 1 t) (iblk m c 2 t) (iblk m c 3 t) (iblk m c 4 t))
      (k0_pay8 (iblk m c 0 t) (iblk m c 1 t) (iblk m c 2 t) (iblk m c 3 t) (iblk m c 4 t)) (iblk m c 5 t) (iblk m c 6 t) (iblk m c 7 t) y
    = outOf m c (((cfg0.win 8).blk t).view.emb y)
  refine (RowValue.projOut_idx (iblk m c 0 t) (iblk m c 1 t) (iblk m c 2 t) (iblk m c 3 t) (iblk m c 4 t) (iblk m c 5 t) (iblk m c 6 t) (iblk m c 7 t) y).trans ?_
  refine (projOut_blocks m c t (y 0) (y 1)).trans ?_
  have hr : rowAt t (y 0) = (((cfg0.win 8).blk t).view.emb y) 0 := Fin.ext (by
    show t.val * 512 + (y 0).val = win0_8.index t (0 : Fin 2) * 512 + 1 * (y 0).val; rw [e0]; omega)
  have hc : (y 1) = (((cfg0.win 8).blk t).view.emb y) 1 := Fin.ext (by
    show (y 1).val = win0_8.index t (1 : Fin 2) * 512 + 1 * (y 1).val; rw [e1]; omega)
  rw [hr, hc]
  rfl

/-! ## The blocks tile the arrays -/

theorem mem_blk8 (t : Fin cfg0.N) (i : S16384x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v5_0).slice (win0_8.rect t)).set ↔ _
  rw [View.set_slice_whole, Rect.mem_set_unit]
  exact Iff.rfl

theorem mem_blk9 (t : Fin cfg0.N) (i : S16384x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v5_1).slice (win0_9.rect t)).set ↔ _
  rw [View.set_slice_whole, Rect.mem_set_unit]
  exact Iff.rfl

/-- Row `r` is in the block of point `r / 512`. -/
theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  refine ⟨⟨(i 0).val / 512, by show (i 0).val / 512 < 32; omega⟩, flush0_8 _, ?_⟩
  obtain ⟨-, -, -, -, -, -, -, -, -, -, -, -, -, -, -, -, e0, e1, -⟩ := idx_facts ⟨(i 0).val / 512, by show (i 0).val / 512 < 32; omega⟩
  rw [mem_blk8]
  intro a
  match a with
  | ⟨0, _⟩ =>
    show win0_8.index _ (0 : Fin 2) * 512 ≤ (i 0).val ∧ (i 0).val < win0_8.index _ (0 : Fin 2) * 512 + 512
    rw [e0]; show (i 0).val / 512 * 512 ≤ (i 0).val ∧ (i 0).val < (i 0).val / 512 * 512 + 512; omega
  | ⟨1, _⟩ =>
    show win0_8.index _ (1 : Fin 2) * 512 ≤ (i 1).val ∧ (i 1).val < win0_8.index _ (1 : Fin 2) * 512 + 512
    rw [e1]; omega

theorem cover9 (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  refine ⟨⟨(i 0).val / 512, by show (i 0).val / 512 < 32; omega⟩, flush0_9 _, ?_⟩
  obtain ⟨-, -, -, -, -, -, -, -, -, -, -, -, -, -, -, -, -, -, e0, e1⟩ := idx_facts ⟨(i 0).val / 512, by show (i 0).val / 512 < 32; omega⟩
  rw [mem_blk9]
  intro a
  match a with
  | ⟨0, _⟩ =>
    show win0_9.index _ (0 : Fin 2) * 512 ≤ (i 0).val ∧ (i 0).val < win0_9.index _ (0 : Fin 2) * 512 + 512
    rw [e0]; show (i 0).val / 512 * 512 ≤ (i 0).val ∧ (i 0).val < (i 0).val / 512 * 512 + 512; omega
  | ⟨1, _⟩ =>
    show win0_9.index _ (1 : Fin 2) * 512 ≤ (i 1).val ∧ (i 1).val < win0_9.index _ (1 : Fin 2) * 512 + 512
    rw [e1]; omega

/-- The output array after the run. -/
theorem finalOut (c : Dev nD) : (dats m 0 c).arrAt 8 cfg0.N = outOf m c :=
  (dats m 0 c).arrAt_eq_of_cover 8 (outOf m c) (fun t _ => flushedOut_eq m c t) cover8

/-- The cell-state array after the run. -/
theorem finalCell (c : Dev nD) : (dats m 0 c).arrAt 9 cfg0.N = cellOf m c :=
  (dats m 0 c).arrAt_eq_of_cover 9 (cellOf m c) (fun t _ => flushedCell_eq m c t) cover9

/-- THE RUN: every weakly fair execution ends with the two result arrays at the layer-normalised LSTM cell of the arguments,
    the arguments unchanged. -/
theorem run : θ_run defs (onTc (τ := τ) (main (F := Ideal))) ⟨m, fun _ => 0, ρ⟩ fun r => ∀ c : Dev nD,
      r.2.mem ((c : Thread nD τ).loc main_v5_0) = outOf m c
      ∧ r.2.mem ((c : Thread nD τ).loc main_v5_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (finalOut m c), (h c).2.1.trans (finalCell m c), (h c).2.2⟩)
    (Value.run_blocks m ρ)

end Cert.KernelIdeal.ArrValue

end
-- ==== Proof.lean ====
/-
  A layer-normalised LSTM cell with a projected output: the kernel against its reference, on the extended reals.

  Both programs compute, for each of the 16384 batch rows, the gate pre-activations `[x, h] · Wᵀ + b`, the new cell
  state `σ(f) · c + σ(i) · tanh(g)`, its layer normalisation `(cell − μ) · rsqrt(var + ε) · scale + shift` (the second result)
  and the projection `(σ(o) · tanh(normalised)) · Wpᵀ` (the first result). The kernel tiles the batch into 32 blocks of 512
  rows, forms the gate pre-activations as two products against the two column halves of `W` instead of one product
  against the joined row, and passes its matrix operands through a narrower float format. On the extended reals a
  change of format is the identity, and a sum over 1024 columns is the sum of its two halves' sums in any commutative
  monoid, so the two programs agree at every input, finite or not; the logistic function, tanh and the reciprocal
  square root are one function on both sides, and every literal is the same word on both sides.

  The argument has four steps: the cell stated row by row (Spec); the reference's two results read index by index as
  that statement (RefValue); one grid point's two stored values read as that statement of the point's blocks
  (KernelRow); and the 32 blocks tiling the two result arrays (KernelValue). The kernel's frames, the run that names
  its result arrays block by block, and the reference's run with its operations read at an index come from the
  generated modules imported below.
-/
import proofs.«113734_j48017734369974_2_alg».proof.Defs
import proofs.«113734_j48017734369974_2_alg».proof.Proof.Gen.Kernel
import proofs.«113734_j48017734369974_2_alg».proof.Proof.Gen.Kernel.Skeleton
import proofs.«113734_j48017734369974_2_alg».proof.Proof.Gen.Kernel.Launch
import proofs.«113734_j48017734369974_2_alg».proof.Proof.Gen.Kernel.Points
import proofs.«113734_j48017734369974_2_alg».proof.Proof.Gen.Kernel.Frame
import proofs.«113734_j48017734369974_2_alg».proof.Proof.Gen.KernelIdeal
import proofs.«113734_j48017734369974_2_alg».proof.Proof.Gen.KernelIdeal.Skeleton
import proofs.«113734_j48017734369974_2_alg».proof.Proof.Gen.KernelIdeal.Launch
import proofs.«113734_j48017734369974_2_alg».proof.Proof.Gen.KernelIdeal.Points
import proofs.«113734_j48017734369974_2_alg».proof.Proof.Gen.KernelIdeal.Frame
import proofs.«113734_j48017734369974_2_alg».proof.Proof.Gen.ReferenceIdeal
import proofs.«113734_j48017734369974_2_alg».proof.Proof.Gen.Pre_finite_inputs
import proofs.«113734_j48017734369974_2_alg».proof.Proof.Gen.KernelIdeal.Value
import proofs.«113734_j48017734369974_2_alg».proof.Proof.Gen.ReferenceIdeal.Run
import proofs.«113734_j48017734369974_2_alg».proof.Proof.Gen.ReferenceIdeal.Read
import proofs.«113734_j48017734369974_2_alg».proof.Proof.RefValue
import proofs.«113734_j48017734369974_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the projected output array and the normalised
    cell state array of the layer-normalised LSTM cell of those arguments. -/
theorem algebraic : Cert.algebraic_KernelIdeal_ReferenceIdeal := by
  intro m ρ m' ρ' _ hagree
  refine ⟨fun c => Cert.KernelIdeal.ArrValue.outOf m c, fun c => Cert.KernelIdeal.ArrValue.cellOf m c,
    Cert.KernelIdeal.ArrValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v59_eq, Cert.ReferenceIdeal.RefValue.out_result, a0, a1, a2, a3, a4, a5, a6, a7]
  · obtain ⟨a0, a1, a2, a3, a4, a5, a6, a7⟩ := hagree c
    rw [Cert.ReferenceIdeal.Read.val_main_v55_eq, Cert.ReferenceIdeal.RefValue.cell_result, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
